-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192 : Shape := ⟨2, ![4, 8192]⟩
abbrev S50257x768 : Shape := ⟨2, ![50257, 768]⟩
abbrev S768 : Shape := ⟨1, ![768]⟩
abbrev S_ : Shape := ⟨0, ![]⟩

class Facts : Prop where
  bcast_S_S50257x768 : S_.BroadcastsInDim S50257x768 (![] : Fin 0 → Fin S50257x768.rank)
  reducesTo_S50257x768_S_d0_1 : S50257x768.ReducesTo [0, 1] S_
  h_S_ : 0 < S_.numel
  bcast_S_S768 : S_.BroadcastsInDim S768 (![] : Fin 0 → Fin S768.rank)
  reducesTo_S768_S_d0 : S768.ReducesTo [0] S_

variable [Facts]

def fn {F : FTy → Type} [FloatOps F] (main_arg0 : IVec S4x8192 32) (main_arg1 : FVec F S50257x768 .f32) (main_arg2 : FVec F S768 .f32) : IVec S_ 1 :=
  let main_v0 : FVec F S50257x768 .f32 := Host.absf main_arg1
  let main_cst : FVec F S_ .f32 := constant S_ .f32 0x7F800000#32
  let main_v1 : FVec F S50257x768 .f32 := broadcastInDim S50257x768 ![] bcast_S_S50257x768 main_cst
  let main_v2 : IVec S50257x768 1 := cmpf .olt main_v0 main_v1
  let main_c : IVec S_ 1 := constantI S_ 1 1#1
  let main_v3 : IVec S_ 1 := (fun x v => Host.reduce IntOp.andi x v reducesTo_S50257x768_S_d0_1 h_S_) main_v2 main_c
  let main_v4 : FVec F S768 .f32 := Host.absf main_arg2
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  main_v8
-- ==== Kernel.lean ====
abbrev S4x8192 : Shape := ⟨2, ![4, 8192]⟩
abbrev S50257x768 : Shape := ⟨2, ![50257, 768]⟩
abbrev S768 : Shape := ⟨1, ![768]⟩
abbrev S1x768 : Shape := ⟨2, ![1, 768]⟩
abbrev S1x1x768 : Shape := ⟨3, ![1, 1, 768]⟩
abbrev S4x8192x768 : Shape := ⟨3, ![4, 8192, 768]⟩
abbrev S4x1024 : Shape := ⟨2, ![4, 1024]⟩
abbrev S4x1024x768 : Shape := ⟨3, ![4, 1024, 768]⟩
abbrev S4x1024x1 : Shape := ⟨3, ![4, 1024, 1]⟩

abbrev nBuf : Space → Nat
  | .hbm => 8
  | .vmem => 5
  | .smem => 0
  | _ => 0

abbrev bufTy : (tb : Table) → Fin (tcTables nBuf tb) → BufTy
  | .hbm, ⟨0, _⟩ => ⟨S4x8192, .i32⟩
  | .hbm, ⟨1, _⟩ => ⟨S50257x768, .f32⟩
  | .hbm, ⟨2, _⟩ => ⟨S768, .f32⟩
  | .hbm, ⟨3, _⟩ => ⟨S1x768, .f32⟩
  | .hbm, ⟨4, _⟩ => ⟨S768, .f32⟩
  | .hbm, ⟨5, _⟩ => ⟨S768, .f32⟩
  | .hbm, ⟨6, _⟩ => ⟨S1x1x768, .f32⟩
  | .hbm, ⟨7, _⟩ => ⟨S4x8192x768, .f32⟩
  | .local _ .vmem, ⟨0, _⟩ => ⟨S4x1024, .i32⟩
  | .local _ .vmem, ⟨1, _⟩ => ⟨S4x1024, .i32⟩
  | .local _ .vmem, ⟨2, _⟩ => ⟨S1x1x768, .f32⟩
  | .local _ .vmem, ⟨3, _⟩ => ⟨S4x1024x768, .f32⟩
  | .local _ .vmem, ⟨4, _⟩ => ⟨S4x1024x768, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S50257x768_S1x768_0_0 : S50257x768.Slices ![0, 0] S1x768
  shapeCasts_S1x768_S768 : S1x768.ShapeCasts S768
  shapeCasts_S768_S1x1x768 : S768.ShapeCasts S1x1x768
  inb_S4x1024_S4x1024_0_0 : ∀ a, (![0, 0] : Fin 2 → Nat) a + S4x1024.size a ≤ S4x1024.size a
  h_S4x1024 : 0 < S4x1024.numel
  natLt_1_32 : 1 < 32
  shapeCasts_S4x1024_S4x1024x1 : S4x1024.ShapeCasts S4x1024x1
  inb_S1x1x768_S1x1x768_0_0_0 : ∀ a, (![0, 0, 0] : Fin 3 → Nat) a + S1x1x768.size a ≤ S1x1x768.size a
  h_S1x1x768 : 0 < S1x1x768.numel
  shapeCasts_S1x1x768_S1x1x768 : S1x1x768.ShapeCasts S1x1x768
  broadcasts_S4x1024x1_S4x1024x768 : S4x1024x1.Broadcasts S4x1024x768
  broadcasts_S1x1x768_S4x1024x768 : S1x1x768.Broadcasts S4x1024x768
  inb_S4x1024x768_S4x1024x768_0_0_0 : ∀ a, (![0, 0, 0] : Fin 3 → Nat) a + S4x1024x768.size a ≤ S4x1024x768.size a
  h_S4x1024x768 : 0 < S4x1024x768.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024.size a ≤ S4x8192.size a
  hwx0_0 : ∀ i : grid0.Coords, EltTy.bits .i32 = 32 ∨ (Rect.block (s := S4x8192) S4x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x768.size a ≤ S1x1x768.size a
  hwx0_1 : ∀ i : grid0.Coords, EltTy.bits .f32 = 32 ∨ (Rect.block (s := S1x1x768) S1x1x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024x768.size a ≤ S4x8192x768.size a
  hwx0_2 : ∀ i : grid0.Coords, EltTy.bits .f32 = 32 ∨ (Rect.block (s := S4x8192x768) S4x1024x768.size (cc0_transform_2 i) (hinb0_2 i)).WholeWords (EltTy.packing .f32)

variable [Facts₀]

abbrev win0_0 : Pipeline.Window sig grid0 :=
  Pipeline.Window.ofSpec (Memref.whole main_arg0) S4x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192 : Shape := ⟨2, ![4, 8192]⟩
abbrev S50257x768 : Shape := ⟨2, ![50257, 768]⟩
abbrev S768 : Shape := ⟨1, ![768]⟩
abbrev S_ : Shape := ⟨0, ![]⟩
abbrev S4x8192x1 : Shape := ⟨3, ![4, 8192, 1]⟩
abbrev S4x8192x768 : Shape := ⟨3, ![4, 8192, 768]⟩
abbrev S1x1x768 : Shape := ⟨3, ![1, 1, 768]⟩

abbrev nBuf : Space → Nat
  | .hbm => 24
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S50257x768, .f32⟩
  | .hbm, ⟨2, _⟩ => ⟨S768, .f32⟩
  | .hbm, ⟨3, _⟩ => ⟨S_, .i32⟩
  | .hbm, ⟨4, _⟩ => ⟨S4x8192, .i32⟩
  | .hbm, ⟨5, _⟩ => ⟨S4x8192, .i1⟩
  | .hbm, ⟨6, _⟩ => ⟨S_, .i32⟩
  | .hbm, ⟨7, _⟩ => ⟨S4x8192, .i32⟩
  | .hbm, ⟨8, _⟩ => ⟨S4x8192, .i32⟩
  | .hbm, ⟨9, _⟩ => ⟨S4x8192, .i32⟩
  | .hbm, ⟨10, _⟩ => ⟨S4x8192x1, .i32⟩
  | .hbm, ⟨11, _⟩ => ⟨S4x8192x768, .f32⟩
  | .hbm, ⟨12, _⟩ => ⟨S1x1x768, .f32⟩
  | .hbm, ⟨13, _⟩ => ⟨S4x8192x768, .f32⟩
  | .hbm, ⟨14, _⟩ => ⟨S4x8192x768, .f32⟩
  | .hbm, ⟨15, _⟩ => ⟨S_, .i32⟩
  | .hbm, ⟨16, _⟩ => ⟨S4x8192, .i32⟩
  | .hbm, ⟨17, _⟩ => ⟨S4x8192, .i1⟩
  | .hbm, ⟨18, _⟩ => ⟨S4x8192x1, .i1⟩
  | .hbm, ⟨19, _⟩ => ⟨S_, .f32⟩
  | .hbm, ⟨20, _⟩ => ⟨S768, .f32⟩
  | .hbm, ⟨21, _⟩ => ⟨S4x8192x768, .i1⟩
  | .hbm, ⟨22, _⟩ => ⟨S4x8192x768, .f32⟩
  | .hbm, ⟨23, _⟩ => ⟨S4x8192x768, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  bcast_S_S768 : S_.BroadcastsInDim S768 (![] : Fin 0 → Fin S768.rank)
  bcast_S4x8192x1_S4x8192x768_0_1_2 : S4x8192x1.BroadcastsInDim S4x8192x768 (![0, 1, 2] : Fin 3 → Fin S4x8192x768.rank)
  bcast_S768_S4x8192x768_2 : S768.BroadcastsInDim S4x8192x768 (![2] : Fin 1 → Fin S4x8192x768.rank)
  gather_S50257x768_S4x8192x1_S4x8192x768_2_0_n_n_0_2_1768_wf : GatherDims.WF S50257x768 S4x8192x1 S4x8192x768 [2] [0] [] [0] [] 2 ![1, 768]

variable [Facts₀]

def gather_S50257x768_S4x8192x1_S4x8192x768_2_0_n_n_0_2_1768 : GatherDims S50257x768 S4x8192x1 S4x8192x768 where
  offsetDims := [2]
  collapsedSliceDims := [0]
  operandBatchingDims := []
  startIndicesBatchingDims := []
  startIndexMap := [0]
  indexVectorDim := 2
  sliceSizes := ![1, 768]
  wf := gather_S50257x768_S4x8192x1_S4x8192x768_2_0_n_n_0_2_1768_wf

class Facts : Prop extends Facts₀ where

variable [Facts]
-- ==== Proof.PaddingRowSpec.lean ====
/-
  The function both programs compute, and the two scalar laws that read each program's spelling of it.

  The inputs are a table of token ids `ids : [4, 8192]` (32-bit words), an embedding table `W : [50257, 768]` and a bias
  `b : [768]` (extended reals). Entry `(p, q, d)` of the result depends on the id only through "is it the padding id 0":
  it is `W[0, d] + b[d]` when `ids[p, q] = 0` and `0` otherwise. So of the whole table only row 0 is ever seen.

  * The kernel multiplies a 0/1 mask, the comparison bit widened to a word and converted to a float, by the row
    `W[0, ·] + b`: `mask_mul`. On the extended reals `1 · r = r` and `0 · r = 0` for EVERY `r`, infinite ones included
    (`0 · ⊤ = 0` is the convention there), so no finiteness of `W` or `b` is used.
  * The reference selects, on the same comparison bit, between the gathered row plus the bias and the literal `0`:
    `select_cmp`.
-/
import Idealize.ShloMosaic.PureOps.Ideal
import Idealize.ShloMosaic.PureOps.Ideal.Laws
import Idealize.ShloMosaic.Lib.ValueIdx

noncomputable section

namespace Cert.PaddingRow

open Idealize.ShloMosaic Idealize.ShloMosaic.ValueIdx

/-- One entry of the result from the token's id word `w` and the padding row's entry `r`: `r` at the padding id, else `0`. -/
def entry (w : BitVec 32) (r : EReal) : EReal := if w = 0#32 then r else 0

/-- Entry `d` of the padding row: row 0 of the table plus the bias. -/
def rowEntry (W : (⟨2, ![50257, 768]⟩ : Shape).Idx → EReal) (b : (⟨1, ![768]⟩ : Shape).Idx → EReal) (d : Fin 768) : EReal :=
  W (ix2 (⟨0, by decide⟩ : Fin 50257) d) + b (ix1 d)

/-- The token `(p, q)` that entry `(p, q, d)` of the result belongs to, as an index of the ids (its coordinates typed at
    the literal extents `4` and `8192`). -/
abbrev tok (i : (⟨3, ![4, 8192, 768]⟩ : Shape).Idx) : (⟨2, ![4, 8192]⟩ : Shape).Idx :=
  ix2 (⟨(i 0).val, (i 0).isLt⟩ : Fin 4) (⟨(i 1).val, (i 1).isLt⟩ : Fin 8192)

/-- The feature `d` of entry `(p, q, d)` of the result (typed at the literal extent `768`). -/
abbrev feat (i : (⟨3, ![4, 8192, 768]⟩ : Shape).Idx) : Fin 768 := ⟨(i 2).val, (i 2).isLt⟩

/-- THE RESULT as one function of the three argument arrays, index by index. -/
def result (ids : (⟨2, ![4, 8192]⟩ : Shape).Idx → BitVec 32) (W : (⟨2, ![50257, 768]⟩ : Shape).Idx → EReal)
    (b : (⟨1, ![768]⟩ : Shape).Idx → EReal) : (⟨3, ![4, 8192, 768]⟩ : Shape).Idx → EReal :=
  fun i => entry (ids (tok i)) (rowEntry W b (feat i))

/-- The comparison "`w` is the zero word" as a bit. -/
theorem cmpi_eq_zero (w : BitVec 32) : IntOp.cmpi .eq w 0#32 = if w = 0#32 then 1#1 else 0#1 := by
  unfold IntOp.cmpi
  by_cases h : w = 0#32
  · subst h; rfl
  · rw [if_neg h]
    have hb : (w == 0#32) = false := by simpa using h
    show BitVec.ofBool (w == 0#32) = 0#1
    rw [hb]; rfl

/-- The kernel's spelling: the comparison bit, widened to a word, converted to a float (so `1` or `0`), times the row's
    entry. `1 · r = r` and `0 · r = 0` hold for every extended real `r`. -/
theorem mask_mul (w : BitVec 32) (r : EReal) :
    FloatOps.mulf (F := Ideal) (φ := .f32) (FloatOps.sitofp (F := Ideal) .f32 ((IntOp.cmpi .eq w 0#32).setWidth 32)) r = entry w r := by
  unfold entry
  rw [cmpi_eq_zero]
  by_cases h : w = 0#32
  · rw [if_pos h, if_pos h]
    show (((((1#1 : BitVec 1).setWidth 32).toInt : ℝ) : EReal)) * r = r
    rw [show ((1#1 : BitVec 1).setWidth 32).toInt = 1 from by decide]
    simp
  · rw [if_neg h, if_neg h]
    show (((((0#1 : BitVec 1).setWidth 32).toInt : ℝ) : EReal)) * r = 0
    rw [show ((0#1 : BitVec 1).setWidth 32).toInt = 0 from by decide]
    simp

/-- The reference's spelling: a select on the same comparison bit. -/
theorem select_cmp (w : BitVec 32) (a z : EReal) :
    Scalar.select (IntOp.cmpi .eq w 0#32) a z = if w = 0#32 then a else z := by
  rw [cmpi_eq_zero]
  by_cases h : w = 0#32
  · rw [if_pos h, if_pos h, select_one]
  · rw [if_neg h, if_neg h, select_zero]

/-- The float literal `0.0` is the extended real `0`. -/
theorem zero_lit : FloatOps.ofBits (F := Ideal) .f32 0x00000000#32 = (0 : EReal) := Ideal.ofBits_zero_f32

end Cert.PaddingRow

end
-- ==== Proof.PaddingRowKernel.lean ====
/-
  The idealized kernel computes `PaddingRow.result`.

  Before the call the host slices row 0 off the table, adds the bias and reshapes the sum to `[1, 1, 768]`: the PADDING
  ROW, which the call stages whole at every grid point. The grid has 8 points; point `t` stages columns
  `1024 t … 1024 t + 1023` of the ids (all 4 rows) and writes back the block of the result over the same columns (all 4
  rows, all 768 features). The body multiplies the 0/1 mask "id is the padding id", given a trailing unit axis and
  broadcast along the features, by the padding row broadcast along rows and columns.

  So entry `(p, q', d)` of point `t`'s block is `entry (ids[p, 1024 t + q']) (W[0, d] + b[d])`, which is entry
  `(p, 1024 t + q', d)` of `result`; the 8 blocks tile the result's middle axis, so the array ends holding `result`.
-/
import proofs.«171232_j68899865362565_1_alg».proof.Proof.Gen.KernelIdeal.Frame
import proofs.«171232_j68899865362565_1_alg».proof.Proof.PaddingRowSpec
import Idealize.ShloMosaic.Lib.Pipeline.Value
import Idealize.ShloMosaic.Lib.ValueIdx
import Idealize.ShloMosaic.Lib.StableHlo.Run

set_option maxRecDepth 16384

noncomputable section

namespace Cert.PaddingRow.Kernel

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-! ## The body's arithmetic at one entry of the block -/

/-- The mask, after its trailing unit axis is added and it is broadcast along the features, read at `(p, q, d)`: the
    comparison bit of id `(p, q)` widened and converted. -/
theorem mask_apply (x0 : Vec Ideal S4x1024 .i32) (p : Fin 4) (q : Fin 1024) (d : Fin 768) :
    (broadcastTo S4x1024x768 (shapeCast S4x1024x1 (sitofp (F := Ideal) .f32 (extui 32 (cmpi .eq x0 (broadcast S4x1024 0#32)) natLt_1_32))
        shapeCasts_S4x1024_S4x1024x1) broadcasts_S4x1024x1_S4x1024x768) (ix3 p q d)
      = FloatOps.sitofp (F := Ideal) .f32 ((IntOp.cmpi .eq (x0 (ix2 p q)) 0#32).setWidth 32) := by
  refine (broadcastTo_apply _ _ (ix3 p q d) (ix3 p q (⟨0, Nat.one_pos⟩ : Fin 1)) (fun a => match a with
    | ⟨0, _⟩ => by show p.val = (if (4 : Nat) = 1 then 0 else p.val); rw [if_neg (by decide)]
    | ⟨1, _⟩ => by show q.val = (if (1024 : Nat) = 1 then 0 else q.val); rw [if_neg (by decide)]
    | ⟨2, _⟩ => by show 0 = (if (1 : Nat) = 1 then 0 else d.val); rw [if_pos rfl])).trans ?_
  refine (shapeCast_apply _ _ (ix3 p q (⟨0, Nat.one_pos⟩ : Fin 1)) (ix2 p q) (by
    rw [Shape.rowMajor_val_two, Shape.rowMajor_val_three]
    show p.val * 1024 + q.val = (p.val * 1024 + q.val) * 1 + 0
    omega)).trans ?_
  rfl

/-- The padding row broadcast along rows and columns, read at `(p, q, d)`: its entry `d`. -/
theorem row_apply (x1 : Vec Ideal S1x1x768 .f32) (p : Fin 4) (q : Fin 1024) (d : Fin 768) :
    (broadcastTo S4x1024x768 (shapeCast S1x1x768 x1 shapeCasts_S1x1x768_S1x1x768) broadcasts_S1x1x768_S4x1024x768) (ix3 p q d)
      = x1 (ix3 (⟨0, Nat.one_pos⟩ : Fin 1) (⟨0, Nat.one_pos⟩ : Fin 1) d) := by
  rw [shapeCast_self]
  exact broadcastTo_apply _ _ (ix3 p q d) (ix3 (⟨0, Nat.one_pos⟩ : Fin 1) (⟨0, Nat.one_pos⟩ : Fin 1) d) (fun a => match a with
    | ⟨0, _⟩ => by show 0 = (if (1 : Nat) = 1 then 0 else p.val); rw [if_pos rfl]
    | ⟨1, _⟩ => by show 0 = (if (1 : Nat) = 1 then 0 else q.val); rw [if_pos rfl]
    | ⟨2, _⟩ => by show d.val = (if (768 : Nat) = 1 then 0 else d.val); rw [if_neg (by decide)])

/-- THE BODY'S PRODUCT at entry `(p, q, d)` of the block, from the staged ids `x0` and the staged padding row `x1`. -/
theorem payload_apply (x0 : Vec Ideal S4x1024 .i32) (x1 : Vec Ideal S1x1x768 .f32) (p : Fin 4) (q : Fin 1024) (d : Fin 768) :
    k0_pay1 x0 x1 (ix3 p q d) = entry (x0 (ix2 p q)) (x1 (ix3 (⟨0, Nat.one_pos⟩ : Fin 1) (⟨0, Nat.one_pos⟩ : Fin 1) d)) := by
  show FloatOps.mulf (F := Ideal) (φ := .f32)
      ((broadcastTo S4x1024x768 (shapeCast S4x1024x1 (sitofp (F := Ideal) .f32 (extui 32 (cmpi .eq x0 (broadcast S4x1024 0#32)) natLt_1_32))
        shapeCasts_S4x1024_S4x1024x1) broadcasts_S4x1024x1_S4x1024x768) (ix3 p q d))
      ((broadcastTo S4x1024x768 (shapeCast S1x1x768 x1 shapeCasts_S1x1x768_S1x1x768) broadcasts_S1x1x768_S4x1024x768) (ix3 p q d)) = _
  rw [mask_apply, row_apply]
  exact mask_mul _ _

/-- The same, matched with an entry `i` of the result: when the staged id at `(p, q)` is the id of `i`'s token and the
    staged row's entry `d` is the padding row's at `i`'s feature, the product is `result` at `i`. -/
theorem block_entry (x0 : Vec Ideal S4x1024 .i32) (x1 : Vec Ideal S1x1x768 .f32)
    (ids : (⟨2, ![4, 8192]⟩ : Shape).Idx → BitVec 32) (W : (⟨2, ![50257, 768]⟩ : Shape).Idx → EReal)
    (b : (⟨1, ![768]⟩ : Shape).Idx → EReal) (p : Fin 4) (q : Fin 1024) (d : Fin 768) (i : S4x8192x768.Idx)
    (h0 : x0 (ix2 p q) = ids (tok i))
    (h1 : x1 (ix3 (⟨0, Nat.one_pos⟩ : Fin 1) (⟨0, Nat.one_pos⟩ : Fin 1) d) = rowEntry W b (feat i)) :
    k0_pay1 x0 x1 (ix3 p q d) = result ids W b i := by
  rw [payload_apply]
  unfold result
  rw [h0, h1]

end Cert.PaddingRow.Kernel

end
-- ==== Proof.PaddingRowBlocks.lean ====
/-
  From the blocks to the whole array: the idealized kernel's result array after the run is `PaddingRow.result`.

  * The padding row as the call finds it: the host's slice of row 0 of the table, reshaped, plus the bias, reshaped to
    `[1, 1, 768]` — entry `(0, 0, d)` is `W[0, d] + b[d]` (`staged_row`).
  * Where the blocks sit (`block_index`, decided over the 8 grid points): the ids' block at point `t` is block `(0, t)` of
    `[4, 1024]`-blocks, the padding row's block is always block `(0, 0, 0)`, the result's block is block `(0, t, 0)` of
    `[4, 1024, 768]`-blocks. A block's array coordinate is (block index) × (block extent) + (coordinate in the block).
  * So what point `t` writes back is block `t` of `result` (`flushed_eq`), every index of the result lies in the block of
    the point `⌊column / 1024⌋` (`covered`), and the array ends holding `result` (`final`, `run`).
-/
import proofs.«171232_j68899865362565_1_alg».proof.Proof.PaddingRowKernel

set_option maxRecDepth 16384

noncomputable section

namespace Cert.PaddingRow.Blocks

open Cert.KernelIdeal Cert.KernelIdeal.Gen Cert.PaddingRow.Kernel
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The padding row, as the call finds it -/

/-- The host's four operations before the call — slice row 0 off the table, drop its unit axis, add the bias, add two
    unit axes — read at entry `(0, 0, d)`: `W[0, d] + b[d]`. -/
theorem row_term_apply (W : S50257x768.Idx → EReal) (b : S768.Idx → EReal) (d : Fin 768) :
    (shapeCast S1x1x768 (addf (F := Ideal) (φ := .f32)
        (shapeCast S768 (extractStridedSlice S1x768 ![0, 0] W slices_S50257x768_S1x768_0_0) shapeCasts_S1x768_S768) b)
      shapeCasts_S768_S1x1x768) (ix3 (⟨0, Nat.one_pos⟩ : Fin 1) (⟨0, Nat.one_pos⟩ : Fin 1) d) = rowEntry W b d := by
  refine (shapeCast_apply _ _ (ix3 (⟨0, Nat.one_pos⟩ : Fin 1) (⟨0, Nat.one_pos⟩ : Fin 1) d) (ix1 d) (by
    rw [Shape.rowMajor_val_one, Shape.rowMajor_val_three]
    show d.val = (0 * 1 + 0) * 768 + d.val
    omega)).trans ?_
  show (shapeCast S768 (extractStridedSlice S1x768 ![0, 0] W slices_S50257x768_S1x768_0_0) shapeCasts_S1x768_S768) (ix1 d)
      + b (ix1 d) = _
  unfold rowEntry
  refine congrArg (· + b (ix1 d)) ?_
  refine (shapeCast_apply _ _ (ix1 d) (ix2 (⟨0, Nat.one_pos⟩ : Fin 1) d) (by
    rw [Shape.rowMajor_val_two, Shape.rowMajor_val_one]
    show 0 * 768 + d.val = d.val
    omega)).trans ?_
  exact extractStridedSlice_apply _ _ _ (ix2 (⟨0, Nat.one_pos⟩ : Fin 1) d) (ix2 (⟨0, by decide⟩ : Fin 50257) d) (fun a => match a with
    | ⟨0, _⟩ => by show 0 = 0 + 0; rfl
    | ⟨1, _⟩ => by show d.val = 0 + d.val; omega)

/-- Entry `(0, 0, d)` of the staged padding row is `W[0, d] + b[d]` of the argument arrays. -/
theorem staged_row (c : Dev nD) (d : Fin 768) :
    (V m c main_v3 : S1x1x768.Idx → EReal) (ix3 (⟨0, Nat.one_pos⟩ : Fin 1) (⟨0, Nat.one_pos⟩ : Fin 1) d)
      = rowEntry (m ((c : Thread nD τ).loc main_arg1)) (m ((c : Thread nD τ).loc main_arg2)) d := by
  have e : (V m c main_v3 : S1x1x768.Idx → EReal) =
      shapeCast S1x1x768 (addf (F := Ideal) (φ := .f32)
        (shapeCast S768 (extractStridedSlice S1x768 ![0, 0] (m ((c : Thread nD τ).loc main_arg1) : S50257x768.Idx → EReal) slices_S50257x768_S1x768_0_0)
          shapeCasts_S1x768_S768)
        (m ((c : Thread nD τ).loc main_arg2) : S768.Idx → EReal)) shapeCasts_S768_S1x1x768 := by
    dsimp only [Gen.V, Gen.hostOps0]; after_results; rfl
  rw [e]
  exact row_term_apply _ _ d

/-! ## Where the blocks sit -/

/-- The printed index maps, decided over the 8 grid points: the ids' and the result's blocks move along the columns with
    the point; the padding row's block does not move. -/
theorem block_index : ∀ t : Fin cfg0.N,
    win0_0.index t (0 : Fin 2) = 0 ∧ win0_0.index t (1 : Fin 2) = t.val
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- WHAT POINT `t` WRITES BACK is block `t` of `result` of the argument arrays. -/
theorem flushed_eq (c : Dev nD) (t : Fin cfg0.N) :
    (dats m 0 c).flushed 2 t = ((cfg0.win 2).blk t).view.read (Elt Ideal)
      (result (m ((c : Thread nD τ).loc main_arg0)) (m ((c : Thread nD τ).loc main_arg1)) (m ((c : Thread nD τ).loc main_arg2))) := by
  show (cfg0.win 2).cut (grid0.coords t) ((dats m 0 c).after 2 t) = _
  rw [after0_2]
  unfold out0_2
  rw [View.canon_unit_zero zeros3]
  simp only [View.ld_unit_zero (S := S4x1024) zeros2, View.ld_unit_zero (S := S1x1x768) zeros3]
  obtain ⟨e00, e01, e10, e11, e12, e20, e21, e22⟩ := block_index t
  funext y
  obtain ⟨p, q, d, rfl⟩ : ∃ (p : Fin 4) (q : Fin 1024) (d : Fin 768), y = ix3 p q d := ⟨y 0, y 1, y 2, eq_ix3 y⟩
  show k0_pay1 (iblk m c 0 t) (iblk m c 1 t) (ix3 p q d)
    = result (m ((c : Thread nD τ).loc main_arg0)) (m ((c : Thread nD τ).loc main_arg1)) (m ((c : Thread nD τ).loc main_arg2))
        (((cfg0.win 2).blk t).view.emb (ix3 p q d))
  refine block_entry (iblk m c 0 t) (iblk m c 1 t) _ _ _ p q d _ ?_ ?_
  · -- the staged id at (p, q) is the id of token (p, 1024 t + q)
    unfold iblk
    rw [View.read_apply]
    show V m c main_arg0 (((cfg0.win 0).blk t).view.emb (ix2 p q)) = _
    rw [V_main_arg0]
    refine congrArg _ ?_
    funext a
    apply Fin.ext
    match a with
    | ⟨0, _⟩ => show win0_0.index t (0 : Fin 2) * 4 + 1 * p.val = win0_2.index t (0 : Fin 3) * 4 + 1 * p.val; omega
    | ⟨1, _⟩ => show win0_0.index t (1 : Fin 2) * 1024 + 1 * q.val = win0_2.index t (1 : Fin 3) * 1024 + 1 * q.val; omega
  · -- the staged row's entry d is the padding row's entry d
    unfold iblk
    rw [View.read_apply]
    have hemb : ((cfg0.win 1).blk t).view.emb (ix3 (⟨0, Nat.one_pos⟩ : Fin 1) (⟨0, Nat.one_pos⟩ : Fin 1) d)
        = ix3 (⟨0, Nat.one_pos⟩ : Fin 1) (⟨0, Nat.one_pos⟩ : Fin 1) d := by
      funext a
      apply Fin.ext
      match a with
      | ⟨0, _⟩ => show win0_1.index t (0 : Fin 3) * 1 + 1 * 0 = 0; omega
      | ⟨1, _⟩ => show win0_1.index t (1 : Fin 3) * 1 + 1 * 0 = 0; omega
      | ⟨2, _⟩ => show win0_1.index t (2 : Fin 3) * 768 + 1 * d.val = d.val; omega
    show V m c main_v3 (((cfg0.win 1).blk t).view.emb (ix3 (⟨0, Nat.one_pos⟩ : Fin 1) (⟨0, Nat.one_pos⟩ : Fin 1) d)) = _
    rw [hemb, staged_row]
    refine congrArg _ ?_
    apply Fin.ext
    show d.val = win0_2.index t (2 : Fin 3) * 768 + 1 * d.val
    omega

/-! ## The blocks tile the array -/

/-- An index of the result is in point `t`'s block iff each coordinate is in the block's range on its axis. -/
theorem mem_blk (t : Fin cfg0.N) (i : S4x8192x768.Idx) :
    i ∈ ((cfg0.win 2).blk t).view.set ↔ ∀ a : Fin 3, win0_2.index t a * S4x1024x768.size a ≤ (i a).val
      ∧ (i a).val < win0_2.index t a * S4x1024x768.size a + S4x1024x768.size a := by
  show i ∈ ((View.whole main_v4).slice (win0_2.rect t)).set ↔ _
  rw [View.set_slice_whole, Rect.mem_set_unit]
  exact Iff.rfl

/-- Every index of the result is in the block of the point its column falls in, `⌊column / 1024⌋`; that point writes back. -/
theorem covered (i : S4x8192x768.Idx) :
    ∃ t : Fin cfg0.N, (cfg0.win 2).flush t = true ∧ i ∈ ((cfg0.win 2).blk t).view.set := by
  have h0 : (i 0).val < 4 := (i 0).isLt
  have h1 : (i 1).val < 8192 := (i 1).isLt
  have h2 : (i 2).val < 768 := (i 2).isLt
  have hN : cfg0.N = 8 := N_0
  obtain ⟨t, ht⟩ : ∃ t : Fin cfg0.N, t.val = (i 1).val / 1024 := ⟨⟨(i 1).val / 1024, by rw [hN]; omega⟩, rfl⟩
  obtain ⟨-, -, -, -, -, e20, e21, e22⟩ := block_index t
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 768 ≤ (i 2).val ∧ (i 2).val < win0_2.index t (2 : Fin 3) * 768 + 768; omega

/-- THE RESULT ARRAY after the run is `result` of the argument arrays. -/
theorem final (c : Dev nD) : (dats m 0 c).arrAt 2 cfg0.N
    = result (m ((c : Thread nD τ).loc main_arg0)) (m ((c : Thread nD τ).loc main_arg1)) (m ((c : Thread nD τ).loc main_arg2)) :=
  (dats m 0 c).arrAt_eq_of_cover 2 _ (fun t _ => flushed_eq m c t) covered

/-! ## The run, read -/

/-- Every weakly fair execution of the idealized kernel terminates with the result array at `result` of the arguments
    and the arguments unchanged: the frame run, with its output array read by `final`, a staged argument by the
    library's law for input windows, an argument no window stages by the run's second clause. -/
theorem run : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.PaddingRow.Blocks

end
-- ==== Proof.LibGatherRows.lean ====
/-
  `stablehlo.gather` of whole ROWS of a table, read at an index.

  What `T[idx]` of a table `T : [N, D]` at an integer array `idx : [R, C]` lowers to: a gather with offset_dims `[2]`,
  collapsed_slice_dims `[0]`, start_index_map `[0]`, index_vector_dim `2` and slice_sizes `[1, D]` over the indices as
  `[R, C, 1]`. Result element `(p, q, d)` is `T[r, d]`, where the row `r` is the start index `idx[p, q, 0]` read as a signed
  integer and clamped into `[0, N − 1]` (the gather clamps every start index so that the slice fits); the column is the
  result's own last coordinate, the one offset axis.

  This is the rank-2-operand companion of the library's `ValueIdx.gather_take_apply` (a flat operand `[N]`).
-/
import Idealize.ShloMosaic.Lib.ValueIdx

noncomputable section

namespace Idealize.ShloMosaic.GatherRows

open Idealize.ShloMosaic Idealize.ShloMosaic.ValueIdx

variable {α : Type}

/-- Those dimension numbers for a table `[N, D]`, start indices `[R, C, 1]` and a result `[R, C, D]`; their conditions
    `wf` are decided on a program's literal shapes. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The start-indices index `[p, q, 0]` of result index `(p, q, d)`. -/
abbrev rowsIdx {R C D : Nat} (y : (⟨3, ![R, C, D]⟩ : Shape).Idx) : (⟨3, ![R, C, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- THE ROW GATHER READ AT `(p, q, d)`: the table at row `idx[p, q, 0]`, read signed and clamped into `[0, N − 1]`, and
    column `d`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowsDims N D R C wf) x idx y
      = x (ix2 (⟨min (idx (rowsIdx y)).toInt.toNat (N - 1), by omega⟩ : Fin N) (⟨(y 2).val, (y 2).isLt⟩ : Fin D)) := by
  unfold Host.gather
  congr 1
  funext a
  refine Fin.ext ?_
  match a with
  | ⟨0, _⟩ =>
    -- the row axis: collapsed (no offset coordinate), not a batching axis, named by the start index map
    show (rowsDims N D R C wf).start y idx 0 + (rowsDims N D R C wf).batchCoord y 0 + (rowsDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx y ⟨List.idxOf (0 : Fin 2) (rowsDims N D R C wf).startIndexMap,
        List.idxOf_lt_length_iff.2 (List.mem_singleton.mpr rfl)⟩ = rowsIdx y := by
      funext b; refine Fin.ext ?_
      match b with
      | ⟨0, _⟩ => rfl
      | ⟨1, _⟩ => rfl
      | ⟨2, _⟩ => rfl
    rw [hsi]
    rfl
  | ⟨1, _⟩ =>
    -- the column axis: the start index map does not name it, it is not a batching axis, and it is the one kept axis,
    -- read off the result's offset axis 2
    show (rowsDims N D R C wf).start y idx 1 + (rowsDims N D R C wf).batchCoord y 1 + (rowsDims N D R C wf).offCoord y 1 = _
    rw [GatherDims.batchCoord_eq_zero _ _ _ List.not_mem_nil]
    unfold GatherDims.start
    rw [dif_neg (show (1 : Fin 2) ∉ (rowsDims N D R C wf).startIndexMap from (by decide : (1 : Fin 2) ∉ [(0 : Fin 2)]))]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

end Idealize.ShloMosaic.GatherRows

end
-- ==== Proof.PaddingRowReference.lean ====
/-
  The reference computes `PaddingRow.result`.

  Its program normalises each id (a negative id has the table's height added), gathers that row of the table, adds the
  bias, and then SELECTS, on "the id is the padding id 0", between this embedding and the literal `0`. Read at an entry
  `(p, q, d)`: where the id is not 0 the select returns the literal and the gathered row is never looked at (so ids outside
  the table, which the gather clamps, do not matter); where the id is 0 it is not negative, stays 0 under the
  normalisation, and the gather reads row 0 — inside the table, so no clamping either. Both cases are `entry` of the spec.
-/
import proofs.«171232_j68899865362565_1_alg».proof.Proof.Gen.ReferenceIdeal.Read
import proofs.«171232_j68899865362565_1_alg».proof.Proof.PaddingRowSpec
import proofs.«171232_j68899865362565_1_alg».proof.Proof.LibGatherRows

noncomputable section

namespace Cert.PaddingRow.Reference

open Cert.ReferenceIdeal Cert.ReferenceIdeal.Gen Cert.ReferenceIdeal.Read
open Idealize.ShloMosaic Idealize.ShloMosaic.ValueIdx Idealize.ShloMosaic.GatherRows

/-- The program's gather is the gather of whole rows of a `[50257, 768]` table at `[4, 8192, 1]` start indices. -/
theorem gather_is_rows :
    gather_S50257x768_S4x8192x1_S4x8192x768_2_0_n_n_0_2_1768
      = rowsDims 50257 768 4 8192 Cert.ReferenceIdeal.Facts₀.gather_S50257x768_S4x8192x1_S4x8192x768_2_0_n_n_0_2_1768_wf := rfl

/-- At a padding token the normalised id, the gather's start index, is still the zero word: `0` is not negative. -/
theorem start_at_padding (x0 : (⟨S4x8192, .i32⟩ : BufTy).Contents (Elt Ideal)) (i : S4x8192x768.Idx)
    (h : x0 (tok i) = 0#32) : val_main_v5 (F := Ideal) x0 (rowsIdx i) = 0#32 := by
  have e : idx_main_v5 (rowsIdx i) = tok i := by
    funext a; match a with | ⟨0, _⟩ => rfl | ⟨1, _⟩ => rfl
  rw [val_main_v5_apply, val_main_v4_apply, val_main_v1_apply, val_main_v0_apply, val_main_c_apply, e, h,
    show IntOp.cmpi .slt (0#32 : BitVec 32) 0#32 = 0#1 from by decide, select_zero]

/-- At a padding token the gather reads row 0 of the table. -/
theorem gathered_at_padding (x0 : (⟨S4x8192, .i32⟩ : BufTy).Contents (Elt Ideal))
    (x1 : (⟨S50257x768, .f32⟩ : BufTy).Contents (Elt Ideal)) (i : S4x8192x768.Idx)
    (h : x0 (tok i) = 0#32) :
    val_main_v6 (F := Ideal) x0 x1 i = x1 (ix2 (⟨0, by decide⟩ : Fin 50257) (feat i)) := by
  unfold val_main_v6
  rw [gather_is_rows, gather_rows_apply (by decide) _ x1 _ i]
  congr 1
  funext a
  match a with
  | ⟨0, _⟩ =>
    refine Fin.ext ?_
    show min (val_main_v5 (F := Ideal) x0 (rowsIdx i)).toInt.toNat (50257 - 1) = 0
    rw [start_at_padding x0 i h]
    decide
  | ⟨1, _⟩ => rfl

/-- THE REFERENCE'S RESULT, index by index, is the specification. -/
theorem reference_eq (x0 : (⟨S4x8192, .i32⟩ : BufTy).Contents (Elt Ideal))
    (x1 : (⟨S50257x768, .f32⟩ : BufTy).Contents (Elt Ideal)) (x2 : (⟨S768, .f32⟩ : BufTy).Contents (Elt Ideal)) :
    val_main_v14 (F := Ideal) x0 x1 x2 = result x0 x1 x2 := by
  funext i
  have e12 : idx_main_v12 (idx_main_call0_v0 i) = tok i := by
    funext a; match a with | ⟨0, _⟩ => rfl | ⟨1, _⟩ => rfl
  have e7 : idx_main_v7 (idx_main_v8 i) = ix1 (feat i) := by
    funext a; match a with | ⟨0, _⟩ => rfl
  rw [val_main_v14_apply, val_main_call0_v0_apply, val_main_v12_apply, val_main_v11_apply, val_main_v10_apply,
    val_main_c_1_apply, val_main_call0_v1_apply, val_main_v13_apply, val_main_cst_apply, val_main_v9_apply,
    val_main_v8_apply, val_main_v7_apply, e12, e7, select_cmp, zero_lit]
  unfold result entry
  by_cases h : x0 (tok i) = 0#32
  · rw [if_pos h, if_pos h, gathered_at_padding x0 x1 i h]
    rfl
  · rw [if_neg h, if_neg h]

end Cert.PaddingRow.Reference

end
-- ==== Proof.lean ====
/-
  The certificate of the padding-row embedding kernel: `Cert.Claim` — the three frames, `preserves` and `algebraic`.

  The mathematics. The reference embeds every token (a row of the table `W` plus the bias `b`) and then keeps the embedding
  only at PADDING tokens (id 0), writing the literal `0` everywhere else. At a padding token the row gathered is row 0, so
  every entry of the result is `W[0, d] + b[d]` where the id is 0 and `0` where it is not (`PaddingRow.result`). The kernel
  computes exactly that, as the product of a 0/1 mask of the ids with the one row `W[0, ·] + b`, which the host prepares
  before the call. On the extended reals `1 · r = r` and `0 · r = 0` for every `r`, so the two agree whatever `W` and `b`
  hold: the precondition (finite inputs) is not used by the value claim.

  * `PaddingRowSpec`      — the function `result`, and the two scalar laws (the mask product; the select on the same bit).
  * `LibGatherRows`       — a gather of whole rows of a table read at an index.
  * `PaddingRowReference` — the reference's run computes `result`.
  * `PaddingRowKernel`    — the kernel body's product at one entry of a block.
  * `PaddingRowBlocks`    — the padding row as staged, the blocks' positions, the cover: the kernel's array is `result`.

  The frames of the two kernel programs are the generated class-A frames; the reference has no kernel, and its frame is its
  generated run with the result dropped. The idealization rewrote nothing, so `preserves` is `True`.
-/
import proofs.«171232_j68899865362565_1_alg».proof.Defs
import proofs.«171232_j68899865362565_1_alg».proof.Proof.Gen.Kernel
import proofs.«171232_j68899865362565_1_alg».proof.Proof.Gen.Kernel.Skeleton
import proofs.«171232_j68899865362565_1_alg».proof.Proof.Gen.Kernel.Launch
import proofs.«171232_j68899865362565_1_alg».proof.Proof.Gen.Kernel.Points
import proofs.«171232_j68899865362565_1_alg».proof.Proof.Gen.Kernel.Frame
import proofs.«171232_j68899865362565_1_alg».proof.Proof.Gen.KernelIdeal
import proofs.«171232_j68899865362565_1_alg».proof.Proof.Gen.KernelIdeal.Skeleton
import proofs.«171232_j68899865362565_1_alg».proof.Proof.Gen.KernelIdeal.Launch
import proofs.«171232_j68899865362565_1_alg».proof.Proof.Gen.KernelIdeal.Points
import proofs.«171232_j68899865362565_1_alg».proof.Proof.Gen.KernelIdeal.Frame
import proofs.«171232_j68899865362565_1_alg».proof.Proof.Gen.ReferenceIdeal
import proofs.«171232_j68899865362565_1_alg».proof.Proof.Gen.ReferenceIdeal.Run
import proofs.«171232_j68899865362565_1_alg».proof.Proof.Gen.ReferenceIdeal.Read
import proofs.«171232_j68899865362565_1_alg».proof.Proof.Gen.Pre_finite_inputs
import proofs.«171232_j68899865362565_1_alg».proof.Proof.PaddingRowBlocks
import proofs.«171232_j68899865362565_1_alg».proof.Proof.PaddingRowReference
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- The reference is a host program: its frame is its run, the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories agreeing on the arguments both idealized programs end with the result array at `PaddingRow.result` of
    the arguments: the kernel by its blocks (`PaddingRow.Blocks.run`), the reference by its run read index by index
    (`PaddingRow.Reference.reference_eq`), the agreement carrying the reference's arguments over to the kernel's. -/
theorem algebraic : Cert.algebraic_KernelIdeal_ReferenceIdeal := by
  intro m ρ m' ρ' _ hagree
  refine ⟨_, Cert.PaddingRow.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.PaddingRow.Reference.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
